-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S100000 : Shape := ⟨1, ![100000]⟩
abbrev S700000 : Shape := ⟨1, ![700000]⟩
abbrev S_ : Shape := ⟨0, ![]⟩
abbrev S700000x1 : Shape := ⟨2, ![700000, 1]⟩
abbrev S100000x1 : Shape := ⟨2, ![100000, 1]⟩
abbrev S5000x128 : Shape := ⟨2, ![5000, 128]⟩
abbrev S5000x1 : Shape := ⟨2, ![5000, 1]⟩
abbrev S700000x128 : Shape := ⟨2, ![700000, 128]⟩
abbrev S1x128 : Shape := ⟨2, ![1, 128]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x600000, .i32⟩
  | .hbm, ⟨7, _⟩ => ⟨S600000, .i32⟩
  | .hbm, ⟨8, _⟩ => ⟨S1x600000, .i32⟩
  | .hbm, ⟨9, _⟩ => ⟨S600000, .i32⟩
  | .hbm, ⟨10, _⟩ => ⟨S100000, .i32⟩
  | .hbm, ⟨11, _⟩ => ⟨S700000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S700000, .i32⟩
  | .hbm, ⟨31, _⟩ => ⟨S700000, .i1⟩
  | .hbm, ⟨32, _⟩ => ⟨S_, .i32⟩
  | .hbm, ⟨33, _⟩ => ⟨S700000, .i32⟩
  | .hbm, ⟨34, _⟩ => ⟨S700000, .i32⟩
  | .hbm, ⟨35, _⟩ => ⟨S700000, .i32⟩
  | .hbm, ⟨36, _⟩ => ⟨S700000x1, .i32⟩
  | .hbm, ⟨37, _⟩ => ⟨S700000x128, .f32⟩
  | .hbm, ⟨38, _⟩ => ⟨S_, .f32⟩
  | .hbm, ⟨39, _⟩ => ⟨S100000x128, .f32⟩
  | .hbm, ⟨40, _⟩ => ⟨S700000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S_, .i32⟩
  | .hbm, ⟨45, _⟩ => ⟨S700000, .i32⟩
  | .hbm, ⟨46, _⟩ => ⟨S700000, .i1⟩
  | .hbm, ⟨47, _⟩ => ⟨S_, .i32⟩
  | .hbm, ⟨48, _⟩ => ⟨S700000, .i32⟩
  | .hbm, ⟨49, _⟩ => ⟨S700000, .i32⟩
  | .hbm, ⟨50, _⟩ => ⟨S700000, .i32⟩
  | .hbm, ⟨51, _⟩ => ⟨S700000x1, .i32⟩
  | .hbm, ⟨52, _⟩ => ⟨S700000x128, .f32⟩
  | .hbm, ⟨53, _⟩ => ⟨S_, .f32⟩
  | .hbm, ⟨54, _⟩ => ⟨S100000x128, .f32⟩
  | .hbm, ⟨55, _⟩ => ⟨S700000x1, .i32⟩
  | .hbm, ⟨56, _⟩ => ⟨S100000x128, .f32⟩
  | .hbm, ⟨57, _⟩ => ⟨S1x128, .f32⟩
  | .hbm, ⟨58, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S100000_S700000_d0 : Shape.Concatenates [S600000, S100000] S700000 0
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S700000x1_S700000_n_0_0_1_wf : ScatterDims.WF S100000 S700000x1 S700000 [] [0] [0] 1
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S128x128 : Shape := ⟨2, ![128, 128]⟩
abbrev S128 : Shape := ⟨1, ![128]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S100000, .i32⟩
  | .hbm, ⟨7, _⟩ => ⟨S1x600000, .i32⟩
  | .hbm, ⟨8, _⟩ => ⟨S600000, .i32⟩
  | .hbm, ⟨9, _⟩ => ⟨S700000, .i32⟩
  | .hbm, ⟨10, _⟩ => ⟨S1x600000, .i32⟩
  | .hbm, ⟨11, _⟩ => ⟨S600000, .i32⟩
  | .hbm, ⟨12, _⟩ => ⟨S700000, .i32⟩
  | .hbm, ⟨13, _⟩ => ⟨S_, .f32⟩
  | .hbm, ⟨14, _⟩ => ⟨S700000, .f32⟩
  | .hbm, ⟨15, _⟩ => ⟨S_, .f32⟩
  | .hbm, ⟨16, _⟩ => ⟨S100000, .f32⟩
  | .hbm, ⟨17, _⟩ => ⟨S700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S700000, .i32⟩
  | .hbm, ⟨29, _⟩ => ⟨S700000, .i1⟩
  | .hbm, ⟨30, _⟩ => ⟨S_, .i32⟩
  | .hbm, ⟨31, _⟩ => ⟨S700000, .i32⟩
  | .hbm, ⟨32, _⟩ => ⟨S700000, .i32⟩
  | .hbm, ⟨33, _⟩ => ⟨S700000, .i32⟩
  | .hbm, ⟨34, _⟩ => ⟨S700000x1, .i32⟩
  | .hbm, ⟨35, _⟩ => ⟨S700000, .f32⟩
  | .hbm, ⟨36, _⟩ => ⟨S_, .i32⟩
  | .hbm, ⟨37, _⟩ => ⟨S700000, .i32⟩
  | .hbm, ⟨38, _⟩ => ⟨S700000, .i1⟩
  | .hbm, ⟨39, _⟩ => ⟨S_, .i32⟩
  | .hbm, ⟨40, _⟩ => ⟨S700000, .i32⟩
  | .hbm, ⟨41, _⟩ => ⟨S700000, .i32⟩
  | .hbm, ⟨42, _⟩ => ⟨S700000, .i32⟩
  | .hbm, ⟨43, _⟩ => ⟨S700000x1, .i32⟩
  | .hbm, ⟨44, _⟩ => ⟨S700000, .f32⟩
  | .hbm, ⟨45, _⟩ => ⟨S700000, .f32⟩
  | .hbm, ⟨46, _⟩ => ⟨S100000x128, .f32⟩
  | .hbm, ⟨47, _⟩ => ⟨S700000x1, .f32⟩
  | .hbm, ⟨48, _⟩ => ⟨S_, .i32⟩
  | .hbm, ⟨49, _⟩ => ⟨S700000, .i32⟩
  | .hbm, ⟨50, _⟩ => ⟨S700000, .i1⟩
  | .hbm, ⟨51, _⟩ => ⟨S_, .i32⟩
  | .hbm, ⟨52, _⟩ => ⟨S700000, .i32⟩
  | .hbm, ⟨53, _⟩ => ⟨S700000, .i32⟩
  | .hbm, ⟨54, _⟩ => ⟨S700000, .i32⟩
  | .hbm, ⟨55, _⟩ => ⟨S700000x1, .i32⟩
  | .hbm, ⟨56, _⟩ => ⟨S700000x128, .f32⟩
  | .hbm, ⟨57, _⟩ => ⟨S700000x128, .f32⟩
  | .hbm, ⟨58, _⟩ => ⟨S700000x128, .f32⟩
  | .hbm, ⟨59, _⟩ => ⟨S_, .f32⟩
  | .hbm, ⟨60, _⟩ => ⟨S100000x128, .f32⟩
  | .hbm, ⟨61, _⟩ => ⟨S700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S700000x1, .f32⟩
  | .hbm, ⟨71, _⟩ => ⟨S_, .i32⟩
  | .hbm, ⟨72, _⟩ => ⟨S700000, .i32⟩
  | .hbm, ⟨73, _⟩ => ⟨S700000, .i1⟩
  | .hbm, ⟨74, _⟩ => ⟨S_, .i32⟩
  | .hbm, ⟨75, _⟩ => ⟨S700000, .i32⟩
  | .hbm, ⟨76, _⟩ => ⟨S700000, .i32⟩
  | .hbm, ⟨77, _⟩ => ⟨S700000, .i32⟩
  | .hbm, ⟨78, _⟩ => ⟨S700000x1, .i32⟩
  | .hbm, ⟨79, _⟩ => ⟨S700000x128, .f32⟩
  | .hbm, ⟨80, _⟩ => ⟨S700000x128, .f32⟩
  | .hbm, ⟨81, _⟩ => ⟨S700000x128, .f32⟩
  | .hbm, ⟨82, _⟩ => ⟨S_, .f32⟩
  | .hbm, ⟨83, _⟩ => ⟨S100000x128, .f32⟩
  | .hbm, ⟨84, _⟩ => ⟨S700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf

class Facts : Prop extends Facts₀ where

variable [Facts]
-- ==== Proof.KRun.lean ====
/-
  The idealized kernel's run with its result named. Every weakly fair execution of @main — three regions among
  stretches of host operations — ends with the result array `main_v40` holding what the last region's write-backs leave,
  `W8 … main_v40` (the fold of the buffer contents through the segments), beside the arguments unchanged. The launch over
  the segments is the one of the frame; only the final read-off also reads the result buffer.
-/
import proofs.«146413_j39213051412908_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates, nothing faulting, with the result array at the last
    boundary's contents and the arguments as launched. -/
theorem run_out : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Out

end
-- ==== Proof.KPay0.lean ====
/-
  The first kernel's body read at one element. Row `p` of a block of 5000 rows, column `q`: the kernel stores
  `d p · Σ_k x (p, k) · w (k, q)` — the block's rows times the weights on the matrix unit, into a zero accumulator
  (the plain 128-term sum; rounding the operands to bf16 is the identity on the extended reals), each row scaled by the
  row's entry of the column `d`.
-/
import proofs.«146413_j39213051412908_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.ValueIdx

private theorem lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a block of 5000 rows with the weights, into a zero accumulator, read at `(p, q)`:
    the 128-term sum over the contracted axis. -/
theorem matmul_at (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q) = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- A column [5000, 1] broadcast along the 128 columns, read at `(p, q)`. -/
theorem bcol_at (v : Vec Ideal S5000x1 .f32) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else q.val; rw [if_pos rfl])

theorem pay0_at (x0 : Vec Ideal S5000x128 .f32) (x1 : Vec Ideal S128x128 .f32) (x2 : Vec Ideal S5000x1 .f32) (p : Fin 5000) (q : Fin 128) :
    k0_pay1 (F := Ideal) x0 x1 x2 (ix2 p q) = x2 (ix2 p (0 : Fin 1)) * ∑ k : Fin 128, x0 (ix2 p k) * x1 (ix2 k q) := by
  unfold k0_pay1
  show (broadcastTo S5000x128 (shapeCast S5000x1 x2 shapeCasts_S5000x1_S5000x1) broadcasts_S5000x1_S5000x128) (ix2 p q)
      * (matmul (F := Ideal) dot_S5000x128_S128x128_S5000x128_1_0_0_1_n_n none (truncf .bf16 x0 bitsLt_bf16_f32) (truncf .bf16 x1 bitsLt_bf16_f32) (constant S5000x128 .f32 0x00000000#32)) (ix2 p q) = _
  rw [shapeCast_self, bcol_at, matmul_at]
  rfl

end Cert.KernelIdeal.Out

end
-- ==== Proof.KReg0.lean ====
/-
  The first region as one function of the arrays it finds. The grid has 20 points; point `t` stages rows
  `5000 t … 5000 t + 4999` of `x` and of the column `d`, all of `w`, and writes back rows `5000 t …` of the output. A
  block's element `(p, q)` is the array's element `(5000 t + p, q)`, so what point `t` writes back is block `t` of the
  whole-array function `R0 x w d (r, c) = d r · Σ_k x (r, k) · w (k, c)`; the 20 blocks tile the 100000 rows (row `r`
  lies in block `r / 5000`), hence the output array ends holding `R0` of the region's entry contents.
-/
import proofs.«146413_j39213051412908_2_alg».proof.Proof.Gen.KernelIdeal.Frame
import proofs.«146413_j39213051412908_2_alg».proof.Proof.KPay0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- the row of an index of a [100000, 128] array -/
abbrev rowOf (i : S100000x128.Idx) : Fin 100000 := ⟨(i 0).val, idx2_lt0 i⟩
/-- the column of an index of a [100000, 128] array -/
abbrev colOf (i : S100000x128.Idx) : Fin 128 := ⟨(i 1).val, idx2_lt1 i⟩

theorem hz : (![0, 0] : Fin 2 → Nat) = fun _ => 0 := funext fun a => by fin_cases a <;> rfl

/-- What the first kernel leaves in its output array: row `r` of `x` times `w`, scaled by `d r`. -/
def R0 (x : S100000x128.Idx → Elt Ideal .f32) (w : S128x128.Idx → Elt Ideal .f32) (d : S100000x1.Idx → Elt Ideal .f32) :
    S100000x128.Idx → Elt Ideal .f32 :=
  fun i => d (ix2 (rowOf i) (0 : Fin 1)) * ∑ k : Fin 128, x (ix2 (rowOf i) k) * w (ix2 k (colOf i))

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem flushed0_eq (c : Dev nD) (t : Fin cfg0.N) :
    (dat0 V c).flushed 3 t = ((cfg0.win 3).blk t).view.read (Elt Ideal) (R0 (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  funext j
  obtain ⟨p, q, rfl⟩ : ∃ (p : Fin 5000) (q : Fin 128), j = ix2 p q := ⟨j 0, j 1, eq_ix2 j⟩
  obtain ⟨e00, e01, e10, e11, e20, e21, e30, e31⟩ := idx_facts0 t
  have ht : t.val < 20 := lt_of_lt_of_eq t.isLt N_0
  have hp : p.val < 5000 := p.isLt
  show k0_pay1 (F := Ideal) (iblk0 V c 0 t) (iblk0 V c 1 t) (iblk0 V c 2 t) (ix2 p q)
    = R0 (V c main_arg0) (V c main_arg2) (V c main_v15) (((cfg0.win 3).blk t).view.emb (ix2 p q))
  refine (pay0_at _ _ _ p q).trans ?_
  have hrow : rowOf (((cfg0.win 3).blk t).view.emb (ix2 p q)) = ⟨t.val * 5000 + p.val, by omega⟩ :=
    Fin.ext (by show win0_3.index t (0 : Fin 2) * 5000 + 1 * p.val = t.val * 5000 + p.val; omega)
  have hcol : colOf (((cfg0.win 3).blk t).view.emb (ix2 p q)) = q :=
    Fin.ext (by show win0_3.index t (1 : Fin 2) * 128 + 1 * q.val = q.val; omega)
  unfold R0
  rw [hrow, hcol]
  have r2 : iblk0 V c 2 t (ix2 p (0 : Fin 1)) = V c main_v15 (ix2 (⟨t.val * 5000 + p.val, by omega⟩ : Fin 100000) (0 : Fin 1)) := by
    show V c main_v15 (((cfg0.win 2).blk t).view.emb (ix2 p (0 : Fin 1))) = _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega
  have r0 : ∀ k : Fin 128, iblk0 V c 0 t (ix2 p k) = V c main_arg0 (ix2 (⟨t.val * 5000 + p.val, by omega⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  have r1 : ∀ k : Fin 128, iblk0 V c 1 t (ix2 k q) = V c main_arg2 (ix2 k q) := fun k => by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  rw [r2]
  refine congrArg _ (Finset.sum_congr rfl fun k _ => ?_)
  rw [r0 k, r1 k]

/-- Every row of the array lies in the block of the grid point `row / 5000`. -/
theorem cover0 (i : S100000x128.Idx) :
    ∃ t : Fin cfg0.N, (cfg0.win 3).flush t = true ∧ i ∈ ((cfg0.win 3).blk t).view.set := by
  have hi0 : (i 0).val < 100000 := idx2_lt0 i
  have hi1 : (i 1).val < 128 := idx2_lt1 i
  have hN : cfg0.N = 20 := N_0
  have hlt : (i 0).val / 5000 < cfg0.N := by rw [hN]; omega
  refine ⟨⟨(i 0).val / 5000, hlt⟩, flush0_3 _, ?_⟩
  obtain ⟨-, -, -, -, -, -, e30, e31⟩ := idx_facts0 ⟨(i 0).val / 5000, hlt⟩
  show i ∈ ((View.whole main_v16).slice (win0_3.rect ⟨(i 0).val / 5000, hlt⟩)).set
  rw [View.set_slice_whole, Rect.mem_set_unit]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hlt⟩ (1 : Fin 2) * 128 ≤ (i 1).val ∧ (i 1).val < win0_3.index ⟨(i 0).val / 5000, hlt⟩ (1 : Fin 2) * 128 + 128
    rw [e31]; omega

/-- The first region's output array after the region: `R0` of the arrays the region found. -/
theorem final0 (c : Dev nD) : (dat0 V c).arrAt 3 cfg0.N = R0 (V c main_arg0) (V c main_arg2) (V c main_v15) :=
  (dat0 V c).arrAt_eq_of_cover 3 (R0 (V c main_arg0) (V c main_arg2) (V c main_v15)) (fun t _ => flushed0_eq V c t) cover0

end Cert.KernelIdeal.Out

end
-- ==== Proof.KPay.lean ====
/-
  The bodies of the second and third kernel, read at one element. Row `p` of a block of 5000 rows, column `q`:
  the fused kernel stores `d p · Σ_k max (d p · a (p, k) + b k) 0 · w (k, q)` (bias, ReLU, the 128-term product with the
  weights, the row's scale), the last kernel `d p · a (p, q) + b q`. A change of float format is the identity on the
  extended reals, the matrix unit's product into a zero accumulator is the plain sum over the contracted axis.
-/
import proofs.«146413_j39213051412908_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.ValueIdx

/-- An [a, 1] array broadcast to [a, b] reads, at (p, c), the operand's one column at row p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The operand indices of the 5000×128 by 128×128 product at output index i and contraction index q, by coordinate:
    the left operand is read at (i's row, q), the right one at (q, i's column). -/
private theorem dl0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem dl1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
private theorem dr0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
private theorem dr1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a block of 5000 rows with the weights, into a zero accumulator, read at (p, q):
    the 128-term sum over the contracted axis. -/
private theorem matmul_at' (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q) = ∑ k : Fin 128, a (ix2 p k) * b (ix2 k q) := by
  show FloatOps.matmul dot_S5000x128_S128x128_S5000x128_1_0_0_1_n_n none a b (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact dl0 _ _
    | ⟨1, _⟩ => exact (dl1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dr0 _ _).trans hk
    | ⟨1, _⟩ => exact dr1 _ _)
  rw [el, er]

theorem pay1_at (v0 : Vec Ideal S5000x1 .f32) (v2 : Vec Ideal S5000x128 .f32) (v6 : Vec Ideal S1x128 .f32)
    (v13 : Vec Ideal S128x128 .f32) (v16 : Vec Ideal S5000x1 .f32) (p : Fin 5000) (q : Fin 128) :
    k1_pay1 (F := Ideal) v0 v2 v6 v13 v16 (ix2 p q)
      = v16 (ix2 p (0 : Fin 1)) * ∑ k : Fin 128, max (v0 (ix2 p (0 : Fin 1)) * v2 (ix2 p k) + v6 (ix2 (0 : Fin 1) k)) (0 : EReal) * v13 (ix2 k q) := by
  -- the outer product reads elementwise: the scale's row p times the matrix product at (p, q), a 128-term sum
  unfold k1_pay1
  rw [mulf_apply, shapeCast_self, shapeCast_self, shapeCast_self, shapeCast_self, broadcastTo_a1_ab_apply, matmul_at']
  refine congrArg (v16 (ix2 p (0 : Fin 1)) * ·) (Finset.sum_congr rfl fun k _ => ?_)
  -- term k: the format changes are the identity, the maximum, sum and product read elementwise, the two broadcasts
  -- read the scale's row p and the bias's column k, and the splat constant is the real zero
  rw [truncf_apply, truncf_apply, maximumf_apply, addf_apply, mulf_apply, broadcast_apply,
    broadcastTo_a1_ab_apply, broadcastTo_1b_ab_apply]
  show max _ (Ideal.ofBits .f32 0x00000000#32) * _ = _
  rw [Ideal.ofBits_zero_f32]

theorem pay2_at (v0 : Vec Ideal S5000x1 .f32) (v2 : Vec Ideal S5000x128 .f32) (v6 : Vec Ideal S1x128 .f32) (p : Fin 5000) (q : Fin 128) :
    k2_pay1 (F := Ideal) v0 v2 v6 (ix2 p q) = v0 (ix2 p (0 : Fin 1)) * v2 (ix2 p q) + v6 (ix2 (0 : Fin 1) q) := by
  -- the sum and the product read elementwise, the casts to the same shape are the identity, and the two broadcasts
  -- read the scale's row p and the bias's column q
  unfold k2_pay1
  rw [addf_apply, mulf_apply, shapeCast_self, shapeCast_self, shapeCast_self,
    broadcastTo_a1_ab_apply, broadcastTo_1b_ab_apply]

end Cert.KernelIdeal.Out

end
-- ==== Proof.KReg1.lean ====
/-
  The second region as one function of the arrays it finds: `R1 a d b w (r, c) = d r · Σ_k max (d r · a (r, k) + b k) 0 · w (k, c)`
  (bias, ReLU, product with the weights, the row's scale), block `t` of which is what grid point `t` writes back; the 20
  blocks of 5000 rows tile the array.
-/
import proofs.«146413_j39213051412908_2_alg».proof.Proof.Gen.KernelIdeal.Frame
import proofs.«146413_j39213051412908_2_alg».proof.Proof.KReg0
import proofs.«146413_j39213051412908_2_alg».proof.Proof.KPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the second kernel leaves in its output array. -/
def R1 (a : S100000x128.Idx → Elt Ideal .f32) (d : S100000x1.Idx → Elt Ideal .f32) (b : S1x128.Idx → Elt Ideal .f32)
    (w : S128x128.Idx → Elt Ideal .f32) : S100000x128.Idx → Elt Ideal .f32 :=
  fun i => d (ix2 (rowOf i) (0 : Fin 1)) * ∑ k : Fin 128,
    max (d (ix2 (rowOf i) (0 : Fin 1)) * a (ix2 (rowOf i) k) + b (ix2 (0 : Fin 1) k)) (0 : EReal) * w (ix2 k (colOf i))

/-- The five windows' block indices at grid point t: the three row-blocked windows are at block row t, the bias row
    and the weights stay at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point t writes back is block t of the whole-array function. -/
theorem flushed1_eq (c : Dev nD) (t : Fin cfg1.N) :
    (dat1 V c).flushed 4 t = ((cfg1.win 4).blk t).view.read (Elt Ideal) (R1 (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz,
    View.ld_unit_zero (S := S128x128) hz]
  funext j
  obtain ⟨p, q, rfl⟩ : ∃ (p : Fin 5000) (q : Fin 128), j = ix2 p q := ⟨j 0, j 1, eq_ix2 j⟩
  obtain ⟨e00, e01, e10, e11, e20, e21, e30, e31, e40, e41⟩ := idx_facts1 t
  have ht : t.val < 20 := lt_of_lt_of_eq t.isLt N_1
  have hp : p.val < 5000 := p.isLt
  show k1_pay1 (F := Ideal) (iblk1 V c 1 t) (iblk1 V c 0 t) (iblk1 V c 2 t) (iblk1 V c 3 t) (iblk1 V c 1 t) (ix2 p q)
    = R1 (V c main_v26) (V c main_v15) (V c main_v27) (V c main_arg4) (((cfg1.win 4).blk t).view.emb (ix2 p q))
  refine (pay1_at _ _ _ _ _ p q).trans ?_
  -- element (p, q) of block t is the array's element (5000 t + p, q)
  have hrow : rowOf (((cfg1.win 4).blk t).view.emb (ix2 p q)) = ⟨t.val * 5000 + p.val, by omega⟩ :=
    Fin.ext (by show win1_4.index t (0 : Fin 2) * 5000 + 1 * p.val = t.val * 5000 + p.val; omega)
  have hcol : colOf (((cfg1.win 4).blk t).view.emb (ix2 p q)) = q :=
    Fin.ext (by show win1_4.index t (1 : Fin 2) * 128 + 1 * q.val = q.val; omega)
  unfold R1
  rw [hrow, hcol]
  have rd : iblk1 V c 1 t (ix2 p (0 : Fin 1)) = V c main_v15 (ix2 (⟨t.val * 5000 + p.val, by omega⟩ : Fin 100000) (0 : Fin 1)) := by
    show V c main_v15 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have ra : ∀ k : Fin 128, iblk1 V c 0 t (ix2 p k) = V c main_v26 (ix2 (⟨t.val * 5000 + p.val, by omega⟩ : Fin 100000) k) := fun k => by
    show V c main_v26 (((cfg1.win 0).blk t).view.emb (ix2 p k)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * k.val = k.val; omega
  have rb : ∀ k : Fin 128, iblk1 V c 2 t (ix2 (0 : Fin 1) k) = V c main_v27 (ix2 (0 : Fin 1) k) := fun k => by
    show V c main_v27 (((cfg1.win 2).blk t).view.emb (ix2 (0 : Fin 1) k)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  have rw3 : ∀ k : Fin 128, iblk1 V c 3 t (ix2 k q) = V c main_arg4 (ix2 k q) := fun k => by
    show V c main_arg4 (((cfg1.win 3).blk t).view.emb (ix2 k q)) = _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  rw [rd]
  refine congrArg _ (Finset.sum_congr rfl fun k _ => ?_)
  rw [ra k, rb k, rw3 k]

/-- Every row of the array lies in the block of the grid point row / 5000. -/
theorem cover1 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 20 := N_1
  have hlt : (i 0).val / 5000 < cfg1.N := by rw [hN]; omega
  refine ⟨⟨(i 0).val / 5000, hlt⟩, flush1_4 _, ?_⟩
  obtain ⟨-, -, -, -, -, -, -, -, e40, e41⟩ := idx_facts1 ⟨(i 0).val / 5000, hlt⟩
  show i ∈ ((View.whole main_v28).slice (win1_4.rect ⟨(i 0).val / 5000, hlt⟩)).set
  rw [View.set_slice_whole, Rect.mem_set_unit]
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    rw [e41]; omega

/-- The second region's output array after the region: `R1` of the arrays the region found. -/
theorem final1 (c : Dev nD) :
    (dat1 V c).arrAt 4 cfg1.N = R1 (V c main_v26) (V c main_v15) (V c main_v27) (V c main_arg4) :=
  (dat1 V c).arrAt_eq_of_cover 4 (R1 (V c main_v26) (V c main_v15) (V c main_v27) (V c main_arg4)) (fun t _ => flushed1_eq V c t) cover1

end Cert.KernelIdeal.Out

end
-- ==== Proof.KReg2.lean ====
/-
  The third region as one function of the arrays it finds: `R2 a d b (r, c) = d r · a (r, c) + b c`, block `t` of which is
  what grid point `t` writes back; the 20 blocks of 5000 rows tile the array.
-/
import proofs.«146413_j39213051412908_2_alg».proof.Proof.Gen.KernelIdeal.Frame
import proofs.«146413_j39213051412908_2_alg».proof.Proof.KReg0
import proofs.«146413_j39213051412908_2_alg».proof.Proof.KPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Out

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What the third kernel leaves in its output array. -/
def R2 (a : S100000x128.Idx → Elt Ideal .f32) (d : S100000x1.Idx → Elt Ideal .f32) (b : S1x128.Idx → Elt Ideal .f32) :
    S100000x128.Idx → Elt Ideal .f32 :=
  fun i => d (ix2 (rowOf i) (0 : Fin 1)) * a (ix2 (rowOf i) (colOf i)) + b (ix2 (0 : Fin 1) (colOf i))

/-- The four windows' block indices at grid point t: the three row-blocked windows are at block row t, the bias row
    stays at its one block. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is block t of the whole-array function. -/
theorem flushed2_eq (c : Dev nD) (t : Fin cfg2.N) :
    (dat2 V c).flushed 3 t = ((cfg2.win 3).blk t).view.read (Elt Ideal) (R2 (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x128) hz, View.ld_unit_zero (S := S5000x1) hz, View.ld_unit_zero (S := S1x128) hz]
  funext j
  obtain ⟨p, q, rfl⟩ : ∃ (p : Fin 5000) (q : Fin 128), j = ix2 p q := ⟨j 0, j 1, eq_ix2 j⟩
  obtain ⟨e00, e01, e10, e11, e20, e21, e30, e31⟩ := idx_facts2 t
  have ht : t.val < 20 := lt_of_lt_of_eq t.isLt N_2
  have hp : p.val < 5000 := p.isLt
  show k2_pay1 (F := Ideal) (iblk2 V c 1 t) (iblk2 V c 0 t) (iblk2 V c 2 t) (ix2 p q)
    = R2 (V c main_v38) (V c main_v15) (V c main_v39) (((cfg2.win 3).blk t).view.emb (ix2 p q))
  refine (pay2_at _ _ _ p q).trans ?_
  -- element (p, q) of block t is the array's element (5000 t + p, q)
  have hrow : rowOf (((cfg2.win 3).blk t).view.emb (ix2 p q)) = ⟨t.val * 5000 + p.val, by omega⟩ :=
    Fin.ext (by show win2_3.index t (0 : Fin 2) * 5000 + 1 * p.val = t.val * 5000 + p.val; omega)
  have hcol : colOf (((cfg2.win 3).blk t).view.emb (ix2 p q)) = q :=
    Fin.ext (by show win2_3.index t (1 : Fin 2) * 128 + 1 * q.val = q.val; omega)
  unfold R2
  rw [hrow, hcol]
  have r1 : iblk2 V c 1 t (ix2 p (0 : Fin 1)) = V c main_v15 (ix2 (⟨t.val * 5000 + p.val, by omega⟩ : Fin 100000) (0 : Fin 1)) := by
    show V c main_v15 (((cfg2.win 1).blk t).view.emb (ix2 p (0 : Fin 1))) = _
    refine congrArg _ (funext fun a => Fin.ext ?_)
    match a with
    | ⟨0, _⟩ => show win2_1.index t (0 : Fin 2) * 5000 + 1 * p.val = t.val * 5000 + p.val; omega
    | ⟨1, _⟩ => show win2_1.index t (1 : Fin 2) * 1 + 1 * 0 = 0; omega
  have r0 : iblk2 V c 0 t (ix2 p q) = V c main_v38 (ix2 (⟨t.val * 5000 + p.val, by omega⟩ : Fin 100000) q) := by
    show V c main_v38 (((cfg2.win 0).blk t).view.emb (ix2 p q)) = _
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * q.val = q.val; omega
  have r2 : iblk2 V c 2 t (ix2 (0 : Fin 1) q) = V c main_v39 (ix2 (0 : Fin 1) q) := by
    show V c main_v39 (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 128 + 1 * q.val = q.val; omega
  rw [r1, r0, r2]

/-- Every row of the array lies in the block of the grid point row / 5000. -/
theorem cover2 (i : S100000x128.Idx) :
    ∃ t : Fin cfg2.N, (cfg2.win 3).flush t = true ∧ i ∈ ((cfg2.win 3).blk t).view.set := by
  have hi0 : (i 0).val < 100000 := idx2_lt0 i
  have hi1 : (i 1).val < 128 := idx2_lt1 i
  have hN : cfg2.N = 20 := N_2
  have hlt : (i 0).val / 5000 < cfg2.N := by rw [hN]; omega
  refine ⟨⟨(i 0).val / 5000, hlt⟩, flush2_3 _, ?_⟩
  obtain ⟨-, -, -, -, -, -, e30, e31⟩ := idx_facts2 ⟨(i 0).val / 5000, hlt⟩
  show i ∈ ((View.whole main_v40).slice (win2_3.rect ⟨(i 0).val / 5000, hlt⟩)).set
  rw [View.set_slice_whole, Rect.mem_set_unit]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val ∧ (i 1).val < win2_3.index ⟨(i 0).val / 5000, hlt⟩ (1 : Fin 2) * 128 + 128
    rw [e31]; omega

/-- The third region's output array after the region: `R2` of the arrays the region found. -/
theorem final2 (c : Dev nD) :
    (dat2 V c).arrAt 3 cfg2.N = R2 (V c main_v38) (V c main_v15) (V c main_v39) :=
  (dat2 V c).arrAt_eq_of_cover 3 (R2 (V c main_v38) (V c main_v15) (V c main_v39)) (fun t _ => flushed2_eq V c t) cover2

end Cert.KernelIdeal.Out

end
-- ==== Proof.KDefs.lean ====
/-
  The host side of the kernel's program as pure functions of the edge array `e : i32[2, 600000]`: the 700000 source and
  destination indices (`srcK`, `dstK`: a row of `e`, then the self-loops 0 … 99999), the degree `degK` (ones scatter-added
  by destination), the normalisation `dinvK = if 0 < deg then 1/√deg else 0` and its column form `dinv2K`; one
  aggregation step `aggK s d H`: gather the rows of `H` the wrapped sources name, scatter-add them by destination onto
  zeros; a bias as a row, `rowK`.
-/
import proofs.«146413_j39213051412908_2_alg».proof.Proof.Gen.KernelIdeal.Frame
import Idealize.ShloMosaic.Lib.StableHlo.Run
import Idealize.ShloMosaic.PureOps.Ideal

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo

/-- integer arrays and float arrays of a shape, at the ideal instance -/
abbrev I32v (s : Shape) := (⟨s, .i32⟩ : BufTy).Contents (Elt Ideal)
abbrev F32v (s : Shape) := (⟨s, .f32⟩ : BufTy).Contents (Elt Ideal)

/-- the source node of every edge: row 0 of the edge array, then the self-loops -/
def srcK (e : I32v S2x600000) : I32v S700000 :=
  concatenate S700000 0 [⟨S600000, shapeCast S600000 (extractStridedSlice S1x600000 ![0, 0] e slices_S2x600000_S1x600000_0_0) shapeCasts_S1x600000_S600000⟩,
    ⟨S100000, iotaInDim S100000 32 0⟩] concatenates_S600000_S100000_S700000_d0
/-- the destination node of every edge: row 1 of the edge array, then the self-loops -/
def dstK (e : I32v S2x600000) : I32v S700000 :=
  concatenate S700000 0 [⟨S600000, shapeCast S600000 (extractStridedSlice S1x600000 ![1, 0] e slices_S2x600000_S1x600000_1_0) shapeCasts_S1x600000_S600000⟩,
    ⟨S100000, iotaInDim S100000 32 0⟩] concatenates_S600000_S100000_S700000_d0
/-- the degree of every node: one per edge landing on it -/
def degK (e : I32v S2x600000) : F32v S100000 :=
  Host.scatterAdd scatter_S100000_S700000x1_S700000_n_0_0_1
    (broadcastInDim S100000 ![] bcast_S_S100000 (constant (F := Ideal) S_ .f32 0x00000000#32))
    (broadcastInDim S700000x1 ![0] bcast_S700000_S700000x1_0 (dstK e))
    (broadcastInDim S700000 ![] bcast_S_S700000 (constant (F := Ideal) S_ .f32 0x3F800000#32))
/-- the normalisation `if 0 < deg then 1/√deg else 0` -/
def dinvK (e : I32v S2x600000) : F32v S100000 :=
  select (cmpf (F := Ideal) .ogt (degK e) (broadcastInDim S100000 ![] bcast_S_S100000 (constant (F := Ideal) S_ .f32 0x00000000#32)))
    (Host.rsqrt (F := Ideal) (φ := .f32) (degK e))
    (broadcastInDim S100000 ![] bcast_S_S100000 (id (constant (F := Ideal) S_ .f32 0x00000000#32)))
/-- the normalisation as a column [100000, 1] -/
def dinv2K (e : I32v S2x600000) : F32v S100000x1 :=
  shapeCast S100000x1 (dinvK e) shapeCasts_S100000_S100000x1
/-- the start indices of the row gather: the sources, a negative one wrapped by 100000 -/
def gsrcK (s : I32v S700000) : I32v S700000x1 :=
  broadcastInDim S700000x1 ![0] bcast_S700000_S700000x1_0
    (select (cmpi .slt s (broadcastInDim S700000 ![] bcast_S_S700000 (constantI S_ 32 0#32)))
      (addi s (broadcastInDim S700000 ![] bcast_S_S700000 (constantI S_ 32 100000#32))) s)
/-- one aggregation: the rows the sources name, added up by destination -/
def aggK (s d : I32v S700000) (H : F32v S100000x128) : F32v S100000x128 :=
  Host.scatterAdd scatter_S100000x128_S700000x1_S700000x128_1_0_0_1
    (broadcastInDim S100000x128 ![] bcast_S_S100000x128 (constant (F := Ideal) S_ .f32 0x00000000#32))
    (broadcastInDim S700000x1 ![0] bcast_S700000_S700000x1_0 d)
    (Host.gather gather_S100000x128_S700000x1_S700000x128_1_0_n_n_0_1_1128 H (gsrcK s))
/-- a bias as a row [1, 128] -/
def rowK (b : F32v S128) : F32v S1x128 := shapeCast S1x128 b shapeCasts_S128_S1x128

end Cert.KernelIdeal.Out

end
-- ==== Proof.KHost3.lean ====
/-
  The first boundary of the kernel's run: when the first region is entered the index arrays and the normalisation
  column hold `srcK`, `dstK`, `dinv2K` of the launch contents of the edge array, and the arguments are untouched.
-/
import proofs.«146413_j39213051412908_2_alg».proof.Proof.KDefs

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

variable (Wv : Valuation τ sig (Elt Ideal))

/-- the reshape to a column -/
theorem ops02_v15 : StableHlo.after (hostOps0_2 (F := Ideal)) Wv (Proc.devRef .tc main_v15)
    = shapeCast S100000x1 (Wv (Proc.devRef .tc main_v14)) shapeCasts_S100000_S100000x1 := by
  after_results
  rfl

/-- the select of the outlined `where` -/
theorem ops01_v14 : StableHlo.after (hostOps0_1 (F := Ideal)) Wv (Proc.devRef .tc main_v14)
    = select (Wv (Proc.devRef .tc main_v12)) (Wv (Proc.devRef .tc main_v13))
        (broadcastInDim S100000 ![] bcast_S_S100000 (id (Wv (Proc.devRef .tc main_cst_2)))) := by
  after_results
  rfl

theorem w1_v12 (c : Dev nD) : W1 m ρ c (Proc.devRef .tc main_v12)
    = cmpf (F := Ideal) .ogt (degK (m ((c : Thread nD τ).loc main_arg1))) (broadcastInDim S100000 ![] bcast_S_S100000 (constant (F := Ideal) S_ .f32 0x00000000#32)) := by
  show StableHlo.after hostOps0 (W0 m ρ c) (Proc.devRef .tc main_v12) = _
  after_results
  rfl

theorem w1_v13 (c : Dev nD) : W1 m ρ c (Proc.devRef .tc main_v13)
    = Host.rsqrt (F := Ideal) (φ := .f32) (degK (m ((c : Thread nD τ).loc main_arg1))) := by
  show StableHlo.after hostOps0 (W0 m ρ c) (Proc.devRef .tc main_v13) = _
  after_results
  rfl

theorem w1_cst2 (c : Dev nD) : W1 m ρ c (Proc.devRef .tc main_cst_2) = constant (F := Ideal) S_ .f32 0x00000000#32 := by
  show StableHlo.after hostOps0 (W0 m ρ c) (Proc.devRef .tc main_cst_2) = _
  after_results

theorem w3_v15 (c : Dev nD) : W3 m ρ c (Proc.devRef .tc main_v15) = dinv2K (m ((c : Thread nD τ).loc main_arg1)) := by
  show StableHlo.after (hostOps0_2 (F := Ideal)) (W2 m ρ c) (Proc.devRef .tc main_v15) = _
  rw [ops02_v15]
  show shapeCast S100000x1 (StableHlo.after (hostOps0_1 (F := Ideal)) (W1 m ρ c) (Proc.devRef .tc main_v14)) shapeCasts_S100000_S100000x1 = _
  rw [ops01_v14, w1_v12, w1_v13, w1_cst2]
  rfl

theorem w3_v5 (c : Dev nD) : W3 m ρ c (Proc.devRef .tc main_v5) = srcK (m ((c : Thread nD τ).loc main_arg1)) := by
  show StableHlo.after hostOps0_2 (StableHlo.after hostOps0_1 (StableHlo.after hostOps0 (W0 m ρ c))) (Proc.devRef .tc main_v5) = _
  after_results
  rfl

theorem w3_v6 (c : Dev nD) : W3 m ρ c (Proc.devRef .tc main_v6) = dstK (m ((c : Thread nD τ).loc main_arg1)) := by
  show StableHlo.after hostOps0_2 (StableHlo.after hostOps0_1 (StableHlo.after hostOps0 (W0 m ρ c))) (Proc.devRef .tc main_v6) = _
  after_results
  rfl

theorem w3_arg (c : Dev nD) :
    W3 m ρ c (Proc.devRef .tc main_arg0) = m ((c : Thread nD τ).loc main_arg0)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4)
    ∧ W3 m ρ c (Proc.devRef .tc main_arg5) = m ((c : Thread nD τ).loc main_arg5) := by
  refine ⟨?_, ?_, ?_, ?_, ?_⟩
  · show StableHlo.after hostOps0_2 (StableHlo.after hostOps0_1 (StableHlo.after hostOps0 (W0 m ρ c))) (Proc.devRef .tc main_arg0) = _
    after_results
  · show StableHlo.after hostOps0_2 (StableHlo.after hostOps0_1 (StableHlo.after hostOps0 (W0 m ρ c))) (Proc.devRef .tc main_arg2) = _
    after_results
  · show StableHlo.after hostOps0_2 (StableHlo.after hostOps0_1 (StableHlo.after hostOps0 (W0 m ρ c))) (Proc.devRef .tc main_arg3) = _
    after_results
  · show StableHlo.after hostOps0_2 (StableHlo.after hostOps0_1 (StableHlo.after hostOps0 (W0 m ρ c))) (Proc.devRef .tc main_arg4) = _
    after_results
  · show StableHlo.after hostOps0_2 (StableHlo.after hostOps0_1 (StableHlo.after hostOps0 (W0 m ρ c))) (Proc.devRef .tc main_arg5) = _
    after_results

end Cert.KernelIdeal.Out

end
-- ==== Proof.KHost57.lean ====
/-
  The two later stretches of host operations, from any buffer contents `Wv`: each gathers the rows of the previous
  region's output that the wrapped sources name and scatter-adds them by destination onto zeros (`aggK`), reshapes a bias
  to a row, and leaves the index arrays, the normalisation column and the arguments where they are.
-/
import proofs.«146413_j39213051412908_2_alg».proof.Proof.KDefs

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo

variable (Wv : Valuation τ sig (Elt Ideal))

theorem ops1_v26 : StableHlo.after (hostOps1 (F := Ideal)) Wv (Proc.devRef .tc main_v26)
    = aggK (Wv (Proc.devRef .tc main_v5)) (Wv (Proc.devRef .tc main_v6)) (Wv (Proc.devRef .tc main_v16)) := by
  after_results
  rfl

theorem ops1_v27 : StableHlo.after (hostOps1 (F := Ideal)) Wv (Proc.devRef .tc main_v27) = rowK (Wv (Proc.devRef .tc main_arg3)) := by
  after_results
  rfl

theorem ops1_keep : StableHlo.after (hostOps1 (F := Ideal)) Wv (Proc.devRef .tc main_v15) = Wv (Proc.devRef .tc main_v15)
    ∧ StableHlo.after (hostOps1 (F := Ideal)) Wv (Proc.devRef .tc main_arg4) = Wv (Proc.devRef .tc main_arg4)
    ∧ StableHlo.after (hostOps1 (F := Ideal)) Wv (Proc.devRef .tc main_v5) = Wv (Proc.devRef .tc main_v5)
    ∧ StableHlo.after (hostOps1 (F := Ideal)) Wv (Proc.devRef .tc main_v6) = Wv (Proc.devRef .tc main_v6)
    ∧ StableHlo.after (hostOps1 (F := Ideal)) Wv (Proc.devRef .tc main_arg5) = Wv (Proc.devRef .tc main_arg5) := by
  refine ⟨?_, ?_, ?_, ?_, ?_⟩ <;> after_results

theorem ops2_v38 : StableHlo.after (hostOps2 (F := Ideal)) Wv (Proc.devRef .tc main_v38)
    = aggK (Wv (Proc.devRef .tc main_v5)) (Wv (Proc.devRef .tc main_v6)) (Wv (Proc.devRef .tc main_v28)) := by
  after_results
  rfl

theorem ops2_v39 : StableHlo.after (hostOps2 (F := Ideal)) Wv (Proc.devRef .tc main_v39) = rowK (Wv (Proc.devRef .tc main_arg5)) := by
  after_results
  rfl

theorem ops2_keep : StableHlo.after (hostOps2 (F := Ideal)) Wv (Proc.devRef .tc main_v15) = Wv (Proc.devRef .tc main_v15) := by
  after_results

end Cert.KernelIdeal.Out

end
-- ==== Proof.KOut.lean ====
/-
  The kernel's result as one function of the arguments. Following the buffer contents through the segments: the
  index arrays, the normalisation column and the arguments pass every region and every later stretch untouched; the
  first region leaves `R0 x W₁ dinv`, the stretch after it its aggregate, the second region `R1` of that, the next stretch
  the aggregate again, and the last region `R2`: the result array holds
  `R2 (agg (R1 (agg (R0 x W₁ dinv)) dinv b₁ W₂)) dinv b₂`.
-/
import proofs.«146413_j39213051412908_2_alg».proof.Proof.KRun
import proofs.«146413_j39213051412908_2_alg».proof.Proof.KReg0
import proofs.«146413_j39213051412908_2_alg».proof.Proof.KReg1
import proofs.«146413_j39213051412908_2_alg».proof.Proof.KReg2
import proofs.«146413_j39213051412908_2_alg».proof.Proof.KHost3
import proofs.«146413_j39213051412908_2_alg».proof.Proof.KHost57

set_option maxRecDepth 16384

noncomputable section

namespace Cert.KernelIdeal.Out

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ### After the first region -/

theorem w4_v16 : W4 m ρ c (Proc.devRef .tc main_v16) = (R0 (m ((c : Thread nD τ).loc main_arg0)) (m ((c : Thread nD τ).loc main_arg2)) (dinv2K (m ((c : Thread nD τ).loc main_arg1)))) := by
  rw [show W4 m ρ c (Proc.devRef .tc main_v16) = (dat0 (V3 m ρ) c).arrAt 3 cfg0.N from W4_arr m ρ c 3, final0]
  show R0 (W3 m ρ c (Proc.devRef .tc main_arg0)) (W3 m ρ c (Proc.devRef .tc main_arg2)) (W3 m ρ c (Proc.devRef .tc main_v15)) = _
  rw [(w3_arg m ρ c).1, (w3_arg m ρ c).2.1, w3_v15]
theorem w4_v5 : W4 m ρ c (Proc.devRef .tc main_v5) = (srcK (m ((c : Thread nD τ).loc main_arg1))) := (W4_of_ne m ρ c main_v5 (by decide)).trans (w3_v5 m ρ c)
theorem w4_v6 : W4 m ρ c (Proc.devRef .tc main_v6) = (dstK (m ((c : Thread nD τ).loc main_arg1))) := (W4_of_ne m ρ c main_v6 (by decide)).trans (w3_v6 m ρ c)
theorem w4_v15 : W4 m ρ c (Proc.devRef .tc main_v15) = (dinv2K (m ((c : Thread nD τ).loc main_arg1))) :=
  ((W4_arr m ρ c 2).trans (((dat0 (V3 m ρ) c).arrAt_in 2 rfl _).trans (A_eq0 (V3 m ρ) c 2))).trans (w3_v15 m ρ c)
theorem w4_arg3 : W4 m ρ c (Proc.devRef .tc main_arg3) = (m ((c : Thread nD τ).loc main_arg3)) := (W4_of_ne m ρ c main_arg3 (by decide)).trans (w3_arg m ρ c).2.2.1
theorem w4_arg4 : W4 m ρ c (Proc.devRef .tc main_arg4) = (m ((c : Thread nD τ).loc main_arg4)) := (W4_of_ne m ρ c main_arg4 (by decide)).trans (w3_arg m ρ c).2.2.2.1
theorem w4_arg5 : W4 m ρ c (Proc.devRef .tc main_arg5) = (m ((c : Thread nD τ).loc main_arg5)) := (W4_of_ne m ρ c main_arg5 (by decide)).trans (w3_arg m ρ c).2.2.2.2

/-! ### When the second region is entered -/

theorem w5_v26 : W5 m ρ c (Proc.devRef .tc main_v26) = (aggK (srcK (m ((c : Thread nD τ).loc main_arg1))) (dstK (m ((c : Thread nD τ).loc main_arg1))) (R0 (m ((c : Thread nD τ).loc main_arg0)) (m ((c : Thread nD τ).loc main_arg2)) (dinv2K (m ((c : Thread nD τ).loc main_arg1))))) := by
  show StableHlo.after (hostOps1 (F := Ideal)) (W4 m ρ c) (Proc.devRef .tc main_v26) = _
  rw [ops1_v26, w4_v5, w4_v6, w4_v16]
theorem w5_v27 : W5 m ρ c (Proc.devRef .tc main_v27) = rowK (m ((c : Thread nD τ).loc main_arg3)) := by
  show StableHlo.after (hostOps1 (F := Ideal)) (W4 m ρ c) (Proc.devRef .tc main_v27) = _
  rw [ops1_v27, w4_arg3]
theorem w5_v15 : W5 m ρ c (Proc.devRef .tc main_v15) = (dinv2K (m ((c : Thread nD τ).loc main_arg1))) := ((ops1_keep (W4 m ρ c)).1).trans (w4_v15 m ρ c)
theorem w5_arg4 : W5 m ρ c (Proc.devRef .tc main_arg4) = (m ((c : Thread nD τ).loc main_arg4)) := ((ops1_keep (W4 m ρ c)).2.1).trans (w4_arg4 m ρ c)
theorem w5_v5 : W5 m ρ c (Proc.devRef .tc main_v5) = (srcK (m ((c : Thread nD τ).loc main_arg1))) := ((ops1_keep (W4 m ρ c)).2.2.1).trans (w4_v5 m ρ c)
theorem w5_v6 : W5 m ρ c (Proc.devRef .tc main_v6) = (dstK (m ((c : Thread nD τ).loc main_arg1))) := ((ops1_keep (W4 m ρ c)).2.2.2.1).trans (w4_v6 m ρ c)
theorem w5_arg5 : W5 m ρ c (Proc.devRef .tc main_arg5) = (m ((c : Thread nD τ).loc main_arg5)) := ((ops1_keep (W4 m ρ c)).2.2.2.2).trans (w4_arg5 m ρ c)

/-! ### After the second region -/

theorem w6_v28 : W6 m ρ c (Proc.devRef .tc main_v28) = (R1 (aggK (srcK (m ((c : Thread nD τ).loc main_arg1))) (dstK (m ((c : Thread nD τ).loc main_arg1))) (R0 (m ((c : Thread nD τ).loc main_arg0)) (m ((c : Thread nD τ).loc main_arg2)) (dinv2K (m ((c : Thread nD τ).loc main_arg1))))) (dinv2K (m ((c : Thread nD τ).loc main_arg1))) (rowK (m ((c : Thread nD τ).loc main_arg3))) (m ((c : Thread nD τ).loc main_arg4))) := by
  rw [show W6 m ρ c (Proc.devRef .tc main_v28) = (dat1 (V5 m ρ) c).arrAt 4 cfg1.N from W6_arr m ρ c 4, final1]
  show R1 (W5 m ρ c (Proc.devRef .tc main_v26)) (W5 m ρ c (Proc.devRef .tc main_v15)) (W5 m ρ c (Proc.devRef .tc main_v27)) (W5 m ρ c (Proc.devRef .tc main_arg4)) = _
  rw [w5_v26, w5_v15, w5_v27, w5_arg4]
theorem w6_v5 : W6 m ρ c (Proc.devRef .tc main_v5) = (srcK (m ((c : Thread nD τ).loc main_arg1))) := (W6_of_ne m ρ c main_v5 (by decide)).trans (w5_v5 m ρ c)
theorem w6_v6 : W6 m ρ c (Proc.devRef .tc main_v6) = (dstK (m ((c : Thread nD τ).loc main_arg1))) := (W6_of_ne m ρ c main_v6 (by decide)).trans (w5_v6 m ρ c)
theorem w6_v15 : W6 m ρ c (Proc.devRef .tc main_v15) = (dinv2K (m ((c : Thread nD τ).loc main_arg1))) :=
  ((W6_arr m ρ c 1).trans (((dat1 (V5 m ρ) c).arrAt_in 1 rfl _).trans (A_eq1 (V5 m ρ) c 1))).trans (w5_v15 m ρ c)
theorem w6_arg5 : W6 m ρ c (Proc.devRef .tc main_arg5) = (m ((c : Thread nD τ).loc main_arg5)) := (W6_of_ne m ρ c main_arg5 (by decide)).trans (w5_arg5 m ρ c)

/-! ### When the third region is entered, and after it -/

theorem w7_v38 : W7 m ρ c (Proc.devRef .tc main_v38) = (aggK (srcK (m ((c : Thread nD τ).loc main_arg1))) (dstK (m ((c : Thread nD τ).loc main_arg1))) (R1 (aggK (srcK (m ((c : Thread nD τ).loc main_arg1))) (dstK (m ((c : Thread nD τ).loc main_arg1))) (R0 (m ((c : Thread nD τ).loc main_arg0)) (m ((c : Thread nD τ).loc main_arg2)) (dinv2K (m ((c : Thread nD τ).loc main_arg1))))) (dinv2K (m ((c : Thread nD τ).loc main_arg1))) (rowK (m ((c : Thread nD τ).loc main_arg3))) (m ((c : Thread nD τ).loc main_arg4)))) := by
  show StableHlo.after (hostOps2 (F := Ideal)) (W6 m ρ c) (Proc.devRef .tc main_v38) = _
  rw [ops2_v38, w6_v5, w6_v6, w6_v28]
theorem w7_v39 : W7 m ρ c (Proc.devRef .tc main_v39) = rowK (m ((c : Thread nD τ).loc main_arg5)) := by
  show StableHlo.after (hostOps2 (F := Ideal)) (W6 m ρ c) (Proc.devRef .tc main_v39) = _
  rw [ops2_v39, w6_arg5]
theorem w7_v15 : W7 m ρ c (Proc.devRef .tc main_v15) = (dinv2K (m ((c : Thread nD τ).loc main_arg1))) := (ops2_keep (W6 m ρ c)).trans (w6_v15 m ρ c)

/-- The kernel's result as one function of its six arguments. -/
def outK (x0 : F32v S100000x128) (e : I32v S2x600000) (w1 : F32v S128x128) (b1 : F32v S128) (w2 : F32v S128x128) (b2 : F32v S128) :
    F32v S100000x128 :=
  R2 (aggK (srcK e) (dstK e) (R1 (aggK (srcK e) (dstK e) (R0 x0 w1 (dinv2K e))) (dinv2K e) (rowK b1) w2)) (dinv2K e) (rowK b2)

/-- The result array at the last boundary is `outK` of the launch contents of the arguments. -/
theorem w8_v40 : W8 m ρ c (Proc.devRef .tc main_v40)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W8 m ρ c (Proc.devRef .tc main_v40) = (dat2 (V7 m ρ) c).arrAt 3 cfg2.N from W8_arr m ρ c 3, final2]
  show R2 (W7 m ρ c (Proc.devRef .tc main_v38)) (W7 m ρ c (Proc.devRef .tc main_v15)) (W7 m ρ c (Proc.devRef .tc main_v39)) = _
  rw [w7_v38, w7_v15, w7_v39]
  rfl

/-- Every weakly fair execution of the idealized kernel ends with its result at `outK` of the arguments, which are unchanged. -/
theorem run_value : θ_run defs (onTc (τ := τ) (main (F := Ideal))) ⟨m, fun _ => 0, ρ⟩ (fun r => ∀ c : Dev nD,
      r.2.mem ((c.tc : Thread nD τ).loc main_v40) = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (w8_v40 m ρ c), (h c).2⟩) (run_out m ρ)

end Cert.KernelIdeal.Out

end
-- ==== Proof.ScatterGather.lean ====
/-
  Index arithmetic of the host's row gather and row scatter-add, and the one algebraic law of this certificate.

  A graph layer moves rows of a [100000, 128] array along 700000 edges: edge `e` reads the row its (wrapped, clamped)
  source index names and adds it into the row its destination index names, when that is a row of the array. Below:
  which row a scatter update lands on (`scat2_row`), which row a gather reads (`gat2_row`, `gat1_row`: the start
  index read signed and clamped to [0, 99999]), that wrapping a non-negative index leaves it alone (`wrap_of_nonneg`),
  that the degree normalisation `if 0 < d then 1/√d else 0` is a non-negative REAL whatever extended real `d` is
  (`dinv_real`), and that a non-negative real factor of a destination row may be moved inside that row's sum over
  edges, onto a per-edge factor that equals it on every edge landing there (`scaled_scatter_sum`): multiplication by a
  non-negative real distributes over every sum of extended reals, so no finiteness of the summands is used.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

abbrev SN : Shape := ⟨1, ![100000]⟩
abbrev SND : Shape := ⟨2, ![100000, 128]⟩
abbrev SE : Shape := ⟨1, ![700000]⟩
abbrev SE1 : Shape := ⟨2, ![700000, 1]⟩
abbrev SED : Shape := ⟨2, ![700000, 128]⟩

abbrev scat2 (wf : ScatterDims.WF SND SE1 SED [1] [0] [0] 1) : ScatterDims SND SE1 SED where
  updateWindowDims := [1]
  insertedWindowDims := [0]
  scatterDimsToOperandDims := [0]
  indexVectorDim := 1
  wf := wf

abbrev gat2 (wf : GatherDims.WF SND SE1 SED [1] [0] [] [0] [] 1 ![1, 128]) : GatherDims SND SE1 SED where
  offsetDims := [1]
  collapsedSliceDims := [0]
  operandBatchingDims := []
  startIndicesBatchingDims := []
  startIndexMap := [0]
  indexVectorDim := 1
  sliceSizes := ![1, 128]
  wf := wf

abbrev gat1 (wf : GatherDims.WF SN SE1 SE [] [0] [] [0] [] 1 ![1]) : GatherDims SN SE1 SE where
  offsetDims := []
  collapsedSliceDims := [0]
  operandBatchingDims := []
  startIndicesBatchingDims := []
  startIndexMap := [0]
  indexVectorDim := 1
  sliceSizes := ![1]
  wf := wf

/-- the start-index entry of edge `e` -/
abbrev eIdx (e : Fin 700000) : SE1.Idx := ix2 e (0 : Fin 1)

theorem scat2_row (wf) (j : SED.Idx) (idx : IVec SE1 32) (i : SND.Idx)
    (h : (scat2 wf).resultIdx? j idx = some i) :
    (idx (eIdx ⟨(j 0).val, idx2_lt0 j⟩)).toInt = ((i 0).val : Int) := by
  -- axis 0 of the operand is an inserted window axis: the window coordinate there is 0
  have hw : (scat2 wf).window j 0 = 0 := by
    unfold ScatterDims.window
    rw [dif_neg (show (0 : Fin 2) ∉ SND.kept ([0] : List (Fin 2)) by decide)]
  -- axis 0 is the one axis the start index names; its component is read at [j's scatter coordinate, 0]
  have hmem : (0 : Fin 2) ∈ (scat2 wf).scatterDimsToOperandDims := List.mem_singleton.mpr rfl
  have hsi : (scat2 wf).siIdx j ⟨List.idxOf (0 : Fin 2) (scat2 wf).scatterDimsToOperandDims,
      List.idxOf_lt_length_iff.2 hmem⟩ = eIdx ⟨(j 0).val, idx2_lt0 j⟩ := by
    funext b; refine Fin.ext ?_
    match b with
    | ⟨0, _⟩ => rfl
    | ⟨1, _⟩ => rfl
  have hs : (scat2 wf).start j idx 0 = (idx (eIdx ⟨(j 0).val, idx2_lt0 j⟩)).toInt := by
    unfold ScatterDims.start
    rw [dif_pos hmem, hsi]
  -- the update lands: every coordinate start + window is in range, and the row is that sum on axis 0
  unfold ScatterDims.resultIdx? at h
  split at h
  · rename_i hb
    have hi := Option.some.inj h
    have h0 := (hb 0).1
    rw [← hi]
    show _ = (((scat2 wf).start j idx 0 + ((scat2 wf).window j 0 : Nat)).toNat : Int)
    rw [hw, hs] at h0
    rw [hw, hs]
    omega
  · exact absurd h (by simp)

theorem gat2_row (wf) (j : SED.Idx) (idx : IVec SE1 32) :
    ((gat2 wf).operandIdx j idx 0).val = min (idx (eIdx ⟨(j 0).val, idx2_lt0 j⟩)).toInt.toNat 99999 := by
  -- on axis 0: no batching axis, and the axis is collapsed, so the row is the clamped start alone
  show (gat2 wf).start j idx 0 + (gat2 wf).batchCoord j 0 + (gat2 wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 2) ∈ (gat2 wf).startIndexMap := List.mem_singleton.mpr rfl
  rw [dif_pos hmem]
  have hsi : (gat2 wf).siIdx j ⟨List.idxOf (0 : Fin 2) (gat2 wf).startIndexMap,
      List.idxOf_lt_length_iff.2 hmem⟩ = eIdx ⟨(j 0).val, idx2_lt0 j⟩ := by
    funext b; refine Fin.ext ?_
    match b with
    | ⟨0, _⟩ => rfl
    | ⟨1, _⟩ => rfl
  rw [hsi]
  rfl

theorem gat1_row (wf) (e : SE.Idx) (idx : IVec SE1 32) :
    ((gat1 wf).operandIdx e idx 0).val = min (idx (eIdx ⟨(e 0).val, (e 0).isLt⟩)).toInt.toNat 99999 := by
  -- the one axis is collapsed and there is no batching axis: the entry is the clamped start alone
  show (gat1 wf).start e idx 0 + (gat1 wf).batchCoord e 0 + (gat1 wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  have hmem : (0 : Fin 1) ∈ (gat1 wf).startIndexMap := List.mem_singleton.mpr rfl
  rw [dif_pos hmem]
  have hsi : (gat1 wf).siIdx e ⟨List.idxOf (0 : Fin 1) (gat1 wf).startIndexMap,
      List.idxOf_lt_length_iff.2 hmem⟩ = eIdx ⟨(e 0).val, (e 0).isLt⟩ := by
    funext b; refine Fin.ext ?_
    match b with
    | ⟨0, _⟩ => rfl
    | ⟨1, _⟩ => rfl
  rw [hsi]
  rfl

theorem wrap_of_nonneg (a : BitVec 32) (n : Nat) (h : a.toInt = (n : Int)) :
    Scalar.select (IntOp.cmpi .slt a 0#32) (IntOp.addi a 100000#32) a = a := by
  -- a word whose signed value is a natural number is not below zero, so the select keeps its second operand
  have hs : a.slt 0#32 = false := by
    rw [BitVec.slt, h]
    simp
  simp only [IntOp.cmpi, hs, Scalar.select]
  simp

theorem dinv_real (x z : Ideal .f32) (hz : z = (0 : EReal)) :
    ∃ a : ℝ, 0 ≤ a ∧ (Scalar.select (FloatOps.cmpf (F := Ideal) (φ := .f32) .ogt x z) (FloatOps.hostUnary (F := Ideal) (φ := .f32) .rsqrt x) z : EReal) = (a : EReal) := by
  subst hz
  rw [Ideal.cmpf_def, Ideal.hostUnary_rsqrt_def]
  have hc : Ideal.cmp .ogt x (0 : EReal) = BitVec.ofBool (decide ((0 : EReal) < x)) := rfl
  by_cases hx : (0 : EReal) < x
  · -- above zero: the top element gives 0, a positive real r gives 1/√r, and the bottom element is not above zero
    have hc1 : Ideal.cmp .ogt x (0 : EReal) = 1#1 := by rw [hc, decide_eq_true hx]; rfl
    rw [hc1, select_one]
    induction x using EReal.rec with
    | bot => exact absurd hx (not_lt.mpr bot_le)
    | top => exact ⟨0, le_refl _, by rw [Ideal.rsqrt_top, EReal.coe_zero]⟩
    | coe r =>
      have hr : 0 < r := EReal.coe_pos.mp hx
      refine ⟨(Real.sqrt r)⁻¹, inv_nonneg.mpr (Real.sqrt_nonneg r), ?_⟩
      rw [Ideal.rsqrt_coe, if_neg (not_lt.mpr hr.le), if_neg hr.ne']
  · -- not above zero: the select returns the zero
    have hc0 : Ideal.cmp .ogt x (0 : EReal) = 0#1 := by rw [hc, decide_eq_false hx]; rfl
    rw [hc0, select_zero]
    exact ⟨0, le_refl _, EReal.coe_zero.symm⟩

/-- A non-negative real factor moves inside any finite sum of extended reals, onto a per-term factor equal to it:
    multiplication by a non-negative real distributes over a sum of two extended reals whatever they are, so the sum is
    taken apart one term at a time. -/
private theorem mul_sum_of_nonneg {J : Type} (a : ℝ) (ha : 0 ≤ a) (p q g : J → EReal) (s : Finset J)
    (hq : ∀ j ∈ s, q j = (a : EReal)) :
    (a : EReal) * ∑ j ∈ s, p j * g j = ∑ j ∈ s, (p j * q j) * g j := by
  classical
  induction s using Finset.induction_on with
  | empty => simp
  | insert j s hj ih =>
    rw [Finset.sum_insert hj, Finset.sum_insert hj,
      EReal.left_distrib_of_nonneg_of_ne_top (EReal.coe_nonneg.mpr ha) (EReal.coe_ne_top a),
      ih (fun k hk => hq k (Finset.mem_insert_of_mem hk)), hq j (Finset.mem_insert_self j s)]
    congr 1
    rw [mul_comm (p j) (a : EReal), mul_assoc]

theorem scaled_scatter_sum {I J : Type} [Fintype J] [DecidableEq I] (tgt : J → Option I) (i : I) (a : ℝ) (ha : 0 ≤ a)
    (z : EReal) (hz : z = 0) (p q g : J → EReal) (hq : ∀ j, tgt j = some i → q j = (a : EReal)) :
    (a : EReal) * (z + ∑ j ∈ Finset.univ.filter (fun j => tgt j = some i), p j * g j)
      = z + ∑ j ∈ Finset.univ.filter (fun j => tgt j = some i), (p j * q j) * g j := by
  subst hz
  rw [zero_add, zero_add]
  exact mul_sum_of_nonneg a ha p q g _ (fun j hj => hq j (Finset.mem_filter.mp hj).2)

end Cert.Gcn

end
-- ==== Proof.RefValue.lean ====
/-
  The reference's two graph layers in normal form. Node `r`'s normalisation is `dcol r` (`if 0 < deg r then 1/√(deg r)
  else 0`, a non-negative real). Edge `e` carries the weight `dcol (source row of e) · dcol (destination row of e)`: the
  reference gathers both factors by the edge's wrapped and clamped indices, and on every edge that LANDS on row `r` of
  the scatter-add (its raw destination index is `r`, so wrapping and clamping leave it alone) the second factor is
  `dcol r`. So each layer's output at `(r, c)` is the sum over the edges landing on `r` of
  `(dcol (source row) · dcol r) · h (source row, c)`, plus the bias at `c`, with `h` the layer's linear map.
-/
import proofs.«146413_j39213051412908_2_alg».proof.Proof.RefReadP
import proofs.«146413_j39213051412908_2_alg».proof.Proof.ScatterGather

noncomputable section

open scoped BigOperators

namespace Cert.ReferenceIdeal.RefValue

open Cert.ReferenceIdeal Cert.ReferenceIdeal.Gen Cert.ReferenceIdeal.ReadP Cert.Gcn
open Idealize.ShloMosaic Idealize.ShloMosaic.ValueIdx

/-- the row of an index of a [100000, 128] array -/
abbrev row (i : S100000x128.Idx) : Fin 100000 := ⟨(i 0).val, idx2_lt0 i⟩
/-- the column of an index of a [100000, 128] array -/
abbrev col (i : S100000x128.Idx) : Fin 128 := ⟨(i 1).val, idx2_lt1 i⟩

/-- the degree normalisation of node `r` -/
def dcol (x1 : (⟨S2x600000, .i32⟩ : BufTy).Contents (Elt Ideal)) (r : Fin 100000) : EReal :=
  val_main_v14 (F := Ideal) x1 (ix1 r)

/-- the edges (update indices) whose destination row and column is `i` -/
def landing (x1 : (⟨S2x600000, .i32⟩ : BufTy).Contents (Elt Ideal)) (i : S100000x128.Idx) : Finset S700000x128.Idx :=
  Finset.univ.filter (fun j => scatter_S100000x128_S700000x1_S700000x128_1_0_0_1.resultIdx? j (val_main_v42 (F := Ideal) x1) = some i)

/-- the array index edge-update `j` reads of the gathered operand -/
def srcAt (x1 : (⟨S2x600000, .i32⟩ : BufTy).Contents (Elt Ideal)) (j : S700000x128.Idx) : S100000x128.Idx :=
  gather_S100000x128_S700000x1_S700000x128_1_0_n_n_0_1_1128.operandIdx j (val_main_v37 (F := Ideal) x1)

theorem dcol_real (x1 : (⟨S2x600000, .i32⟩ : BufTy).Contents (Elt Ideal)) (r : Fin 100000) :
    ∃ a : ℝ, 0 ≤ a ∧ dcol x1 r = (a : EReal) := by
  -- the select's condition compares the degree with a zero read through a broadcast, and its else-branch is that zero
  unfold dcol
  rw [val_main_v14_apply, val_main_v12_apply, val_main_v13_apply]
  rw [val_main_v11_apply, val_main_cst_1_apply, val_main_call0_v1_apply, val_main_call0_v0_apply, val_main_cst_2_apply]
  exact Cert.Gcn.dinv_real _ _ (by rw [Ideal.ofBits_def, Ideal.ofBits_zero_f32])

/-- the program's dimension records are the literal-shape ones the index lemmas are stated for -/
private theorem scat2_eq : scatter_S100000x128_S700000x1_S700000x128_1_0_0_1
    = Cert.Gcn.scat2 Facts₀.scatter_S100000x128_S700000x1_S700000x128_1_0_0_1_wf := rfl
private theorem gat2_eq : gather_S100000x128_S700000x1_S700000x128_1_0_n_n_0_1_1128
    = Cert.Gcn.gat2 Facts₀.gather_S100000x128_S700000x1_S700000x128_1_0_n_n_0_1_1128_wf := rfl
private theorem gat1_eq : gather_S100000_S700000x1_S700000_n_0_n_n_0_1_1
    = Cert.Gcn.gat1 Facts₀.gather_S100000_S700000x1_S700000_n_0_n_n_0_1_1_wf := rfl

/-- the program computes the wrapped sources twice, by the same operations on the same operands -/
private theorem v37_eq_v20 (x1 : (⟨S2x600000, .i32⟩ : BufTy).Contents (Elt Ideal)) :
    val_main_v37 (F := Ideal) x1 = val_main_v20 (F := Ideal) x1 := rfl

/-- The weight of an edge landing on row `i`: the first factor is gathered at the edge's wrapped, clamped source, which is
    the row the 2-D gather reads; the second is gathered at the wrapped, clamped destination, and the raw destination
    of a landing edge is `i`'s row, a natural number below 100000 that wrapping and clamping leave alone. -/
private theorem weight_at (x1 : (⟨S2x600000, .i32⟩ : BufTy).Contents (Elt Ideal)) (j : S700000x128.Idx) (i : S100000x128.Idx)
    (h : j ∈ landing x1 i) :
    val_main_v39 (F := Ideal) x1 j = dcol x1 (row (srcAt x1 j)) * dcol x1 (row i) := by
  rw [val_main_v39_apply, val_main_v31_apply, val_main_v29_apply, Ideal.mulf_def]
  have hA : val_main_v21 (F := Ideal) x1 (idx_main_v31 (idx_main_v39 j)) = dcol x1 (row (srcAt x1 j)) := by
    show val_main_v14 (F := Ideal) x1 (gather_S100000_S700000x1_S700000_n_0_n_n_0_1_1.operandIdx (idx_main_v31 (idx_main_v39 j)) (val_main_v20 (F := Ideal) x1))
      = val_main_v14 (F := Ideal) x1 (ix1 (row (srcAt x1 j)))
    rw [eq_ix1 (gather_S100000_S700000x1_S700000_n_0_n_n_0_1_1.operandIdx (idx_main_v31 (idx_main_v39 j)) (val_main_v20 (F := Ideal) x1))]
    refine congrArg (fun k => val_main_v14 (F := Ideal) x1 (ix1 k)) (Fin.ext ?_)
    rw [gat1_eq, gat1_row]
    show _ = ((gather_S100000x128_S700000x1_S700000x128_1_0_n_n_0_1_1128.operandIdx j (val_main_v37 (F := Ideal) x1)) 0).val
    rw [gat2_eq, gat2_row, v37_eq_v20]
  have hB : val_main_v28 (F := Ideal) x1 (idx_main_v31 (idx_main_v39 j)) = dcol x1 (row i) := by
    show val_main_v14 (F := Ideal) x1 (gather_S100000_S700000x1_S700000_n_0_n_n_0_1_1.operandIdx (idx_main_v31 (idx_main_v39 j)) (val_main_v27 (F := Ideal) x1))
      = val_main_v14 (F := Ideal) x1 (ix1 (row i))
    rw [eq_ix1 (gather_S100000_S700000x1_S700000_n_0_n_n_0_1_1.operandIdx (idx_main_v31 (idx_main_v39 j)) (val_main_v27 (F := Ideal) x1))]
    refine congrArg (fun k => val_main_v14 (F := Ideal) x1 (ix1 k)) (Fin.ext ?_)
    rw [gat1_eq, gat1_row]
    have hl := (Finset.mem_filter.mp h).2
    rw [scat2_eq] at hl
    have hd := scat2_row _ j (val_main_v42 (F := Ideal) x1) i hl
    rw [val_main_v42_apply] at hd
    rw [val_main_v27_apply, val_main_v26_apply, val_main_v23_apply, val_main_v25_apply, val_main_v22_apply, val_main_c_4_apply,
      val_main_v24_apply, val_main_c_5_apply]
    have hidx : idx_main_v27 (eIdx ⟨(idx_main_v31 (idx_main_v39 j) 0).val, (idx_main_v31 (idx_main_v39 j) 0).isLt⟩)
        = idx_main_v42 (eIdx ⟨(j 0).val, idx2_lt0 j⟩) := by
      funext a; match a with | ⟨0, _⟩ => rfl
    rw [hidx, wrap_of_nonneg _ (i 0).val hd, hd, Int.toNat_natCast]
    have hi := idx2_lt0 i
    show min (i 0).val 99999 = (i 0).val
    omega
  rw [hA, hB]

/-- the second layer recomputes the first layer's index arrays and weight broadcast: same operations, same operands -/
private theorem v60_eq_v42 (x1 : (⟨S2x600000, .i32⟩ : BufTy).Contents (Elt Ideal)) :
    val_main_v60 (F := Ideal) x1 = val_main_v42 (F := Ideal) x1 := rfl
private theorem v55_eq_v37 (x1 : (⟨S2x600000, .i32⟩ : BufTy).Contents (Elt Ideal)) :
    val_main_v55 (F := Ideal) x1 = val_main_v37 (F := Ideal) x1 := rfl
private theorem v57_eq_v39 (x1 : (⟨S2x600000, .i32⟩ : BufTy).Contents (Elt Ideal)) :
    val_main_v57 (F := Ideal) x1 = val_main_v39 (F := Ideal) x1 := rfl

/-- the first layer's scatter-add onto zeros, read at `i`: the sum of the updates landing there -/
private theorem v43_at (x0 : (⟨S100000x128, .f32⟩ : BufTy).Contents (Elt Ideal)) (x1 : (⟨S2x600000, .i32⟩ : BufTy).Contents (Elt Ideal))
    (x2 : (⟨S128x128, .f32⟩ : BufTy).Contents (Elt Ideal)) (i : S100000x128.Idx) :
    val_main_v43 (F := Ideal) x0 x1 x2 i
      = (0 : EReal) + ∑ j ∈ landing x1 i, val_main_v40 (F := Ideal) x0 x1 x2 j := by
  have hz : val_main_v41 (F := Ideal) i = (0 : EReal) := by
    rw [val_main_v41_apply, val_main_cst_8_apply, Ideal.ofBits_def, Ideal.ofBits_zero_f32]
  rw [← hz]
  unfold val_main_v43 landing
  rw [Host.scatterAdd, Ideal.hostScatterAdd_def]
  unfold Ideal.hostScatterAdd
  rfl

/-- the second layer's scatter-add onto zeros, read at `i` -/
private theorem v61_at (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (i : S100000x128.Idx) :
    val_main_v61 (F := Ideal) x0 x1 x2 x3 x4 i
      = (0 : EReal) + ∑ j ∈ landing x1 i, val_main_v58 (F := Ideal) x0 x1 x2 x3 x4 j := by
  have hz : val_main_v59 (F := Ideal) i = (0 : EReal) := by
    rw [val_main_v59_apply, val_main_cst_11_apply, Ideal.ofBits_def, Ideal.ofBits_zero_f32]
  rw [← hz]
  unfold val_main_v61 landing
  rw [Host.scatterAdd, Ideal.hostScatterAdd_def, v60_eq_v42]
  unfold Ideal.hostScatterAdd
  rfl

/-- the rows the two 2-D gathers read -/
private theorem v38_at (x0 : (⟨S100000x128, .f32⟩ : BufTy).Contents (Elt Ideal)) (x1 : (⟨S2x600000, .i32⟩ : BufTy).Contents (Elt Ideal))
    (x2 : (⟨S128x128, .f32⟩ : BufTy).Contents (Elt Ideal)) (j : S700000x128.Idx) :
    val_main_v38 (F := Ideal) x0 x1 x2 j = val_main_v30 (F := Ideal) x0 x2 (srcAt x1 j) := rfl
private theorem v56_at (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (j : S700000x128.Idx) :
    val_main_v56 (F := Ideal) x0 x1 x2 x3 x4 j = val_main_v48 (F := Ideal) x0 x1 x2 x3 x4 (srcAt x1 j) := by
  unfold val_main_v56 srcAt
  rw [v55_eq_v37]
  rfl

theorem ref_v46 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) (i : S100000x128.Idx) :
    val_main_v46 (F := Ideal) x0 x1 x2 x3 i
      = ((0 : EReal) + ∑ j ∈ landing x1 i, (dcol x1 (row (srcAt x1 j)) * dcol x1 (row i)) * val_main_v30 (F := Ideal) x0 x2 (srcAt x1 j))
        + x3 (ix1 (col i)) := by
  -- the bias is read through two broadcasts; the scatter-add onto zeros is the sum over the landing edges of weight times gathered row
  rw [val_main_v46_apply, Ideal.addf_def]
  have hb : val_main_v45 (F := Ideal) x3 i = x3 (ix1 (col i)) := by
    rw [val_main_v45_apply, val_main_v44_apply]
    refine congrArg x3 ?_
    funext a; match a with | ⟨0, _⟩ => rfl
  rw [hb, v43_at]
  refine congrArg (fun s => (0 : EReal) + s + x3 (ix1 (col i))) (Finset.sum_congr rfl fun j hj => ?_)
  rw [val_main_v40_apply, Ideal.mulf_def, weight_at x1 j i hj, v38_at]

theorem ref_v47 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal)) (i : S100000x128.Idx) :
    val_main_v47 (F := Ideal) x0 x1 x2 x3 i = max (val_main_v46 (F := Ideal) x0 x1 x2 x3 i) (0 : EReal) := by
  -- the maximum's second operand is the zero word read through a broadcast
  rw [val_main_v47_apply, val_main_call1_v0_apply, val_main_call1_cst_apply, Ideal.maximumf_def, Ideal.ofBits_def, Ideal.ofBits_zero_f32]

theorem ref_v64 (x0 : (⟨S100000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) (i : S100000x128.Idx) :
    val_main_v64 (F := Ideal) x0 x1 x2 x3 x4 x5 i
      = ((0 : EReal) + ∑ j ∈ landing x1 i, (dcol x1 (row (srcAt x1 j)) * dcol x1 (row i)) * val_main_v48 (F := Ideal) x0 x1 x2 x3 x4 (srcAt x1 j))
        + x5 (ix1 (col i)) := by
  -- the second layer: the same weight broadcast again, the same index arrays recomputed, the rows gathered from the second linear map
  rw [val_main_v64_apply, Ideal.addf_def]
  have hb : val_main_v63 (F := Ideal) x5 i = x5 (ix1 (col i)) := by
    rw [val_main_v63_apply, val_main_v62_apply]
    refine congrArg x5 ?_
    funext a; match a with | ⟨0, _⟩ => rfl
  rw [hb, v61_at]
  refine congrArg (fun s => (0 : EReal) + s + x5 (ix1 (col i))) (Finset.sum_congr rfl fun j hj => ?_)
  rw [val_main_v58_apply, Ideal.mulf_def, v57_eq_v39, weight_at x1 j i hj, v56_at]

end Cert.ReferenceIdeal.RefValue

end
-- ==== Proof.Bridge.lean ====
/-
  The kernel's function of the arguments IS the reference's. Both compute two graph layers. The reference weights
  edge `e` by `dinv (src e) · dinv (dst e)` inside the sum over the edges landing on a row; the kernel scales the rows by
  `dinv` before the gather and scales the aggregated row `r` by `dinv r` afterwards. On every edge landing on row `r`
  the reference's second factor is `dinv r`, and `dinv r` is a non-negative real, so it moves inside the sum of
  extended reals (no finiteness of the summands is needed): the layers agree, first layer, ReLU and second linear map,
  second layer, index by index.
-/
import proofs.«146413_j39213051412908_2_alg».proof.Proof.KOut
import proofs.«146413_j39213051412908_2_alg».proof.Proof.RefValue

set_option maxRecDepth 16384

noncomputable section

open scoped BigOperators

namespace Cert.Bridge

open Idealize.ShloMosaic Idealize.ShloMosaic.ValueIdx
open Cert.KernelIdeal.Out Cert.ReferenceIdeal.RefValue Cert.ReferenceIdeal.ReadP Cert.Gcn

/-! ### The two programs' host sides are the same terms -/

private theorem e_dinv (e : I32v Cert.KernelIdeal.S2x600000) : dinvK e = val_main_v14 (F := Ideal) e := rfl
private theorem e_v42 (e : I32v Cert.KernelIdeal.S2x600000) :
    broadcastInDim Cert.KernelIdeal.S700000x1 ![0] Cert.KernelIdeal.Gen.bcast_S700000_S700000x1_0 (dstK e) = val_main_v42 (F := Ideal) e := rfl
private theorem e_gsrc (e : I32v Cert.KernelIdeal.S2x600000) : gsrcK (srcK e) = val_main_v37 (F := Ideal) e := rfl
private theorem e_scat : Cert.KernelIdeal.scatter_S100000x128_S700000x1_S700000x128_1_0_0_1
    = Cert.ReferenceIdeal.scatter_S100000x128_S700000x1_S700000x128_1_0_0_1 := rfl
private theorem e_gat : Cert.KernelIdeal.gather_S100000x128_S700000x1_S700000x128_1_0_n_n_0_1_1128
    = Cert.ReferenceIdeal.gather_S100000x128_S700000x1_S700000x128_1_0_n_n_0_1_1128 := rfl

/-! ### The kernel's host-side functions read at an index -/

/-- One aggregation at an index: the sum, over the edge updates landing there, of the operand at the rows their sources name. -/
private theorem f_agg (e : I32v Cert.KernelIdeal.S2x600000) (H : F32v Cert.KernelIdeal.S100000x128) (i : Cert.ReferenceIdeal.S100000x128.Idx) :
    aggK (srcK e) (dstK e) H i = (0 : EReal) + ∑ j ∈ landing e i, H (srcAt e j) := by
  unfold aggK landing srcAt
  rw [Host.scatterAdd, Ideal.hostScatterAdd_def]
  unfold Ideal.hostScatterAdd
  rw [e_gsrc, e_v42, e_scat, e_gat]
  refine congrArg₂ (· + ·) ?_ rfl
  show Ideal.ofBits .f32 0x00000000#32 = 0
  exact Ideal.ofBits_zero_f32

/-- An [a] array cast to [a, 1] reads, at (i, u), the operand at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The normalisation column at row r is the reference's normalisation of node r. -/
private theorem f_dinv2 (e : I32v Cert.KernelIdeal.S2x600000) (r : Fin 100000) : dinv2K e (ix2 r (0 : Fin 1)) = dcol e r :=
  shapeCast_a_a1_apply (a := 100000) (dinvK e) _ r 0

/-- A bias as a row, at column c. -/
private theorem f_row (b : F32v Cert.KernelIdeal.S128) (c : Fin 128) : rowK b (ix2 (0 : Fin 1) c) = b (ix1 c) :=
  shapeCast_a_1a_apply (a := 128) b _ 0 c

/-- An index of a [100000, 128] array is the pair of its row and its column. -/
private theorem f_ix (i : Cert.ReferenceIdeal.S100000x128.Idx) : ix2 (row i) (col i) = i := by
  funext a; match a with | ⟨0, _⟩ => rfl | ⟨1, _⟩ => rfl

/-! ### One layer -/

/-- Scaling the rows before the aggregation and the aggregated row afterwards is the reference's weighting of every
    edge by the product of its two endpoints' normalisations: on an edge landing on row r the second factor is the
    normalisation of r, a non-negative real, which moves inside the sum. -/
private theorem layer (e : I32v Cert.KernelIdeal.S2x600000) (H : Cert.ReferenceIdeal.S100000x128.Idx → EReal) (i : Cert.ReferenceIdeal.S100000x128.Idx) :
    dcol e (row i) * aggK (srcK e) (dstK e) (fun i' => dcol e (row i') * H i') i
      = (0 : EReal) + ∑ j ∈ landing e i, (dcol e (row (srcAt e j)) * dcol e (row i)) * H (srcAt e j) := by
  rw [f_agg]
  obtain ⟨a, ha, hd⟩ := dcol_real e (row i)
  rw [hd]
  exact Cert.Gcn.scaled_scatter_sum
    (fun j => Cert.ReferenceIdeal.scatter_S100000x128_S700000x1_S700000x128_1_0_0_1.resultIdx? j (val_main_v42 (F := Ideal) e))
    i a ha 0 rfl (fun j => dcol e (row (srcAt e j))) (fun _ => (a : EReal)) (fun j => H (srcAt e j)) (fun _ _ => rfl)

/-! ### The two layers -/

private theorem lidx30 (i : Cert.ReferenceIdeal.S100000x128.Idx) (k : Fin 128) : lidx_main_v30 i k = ix2 (row i) k := by
  funext a; match a with | ⟨0, _⟩ => rfl | ⟨1, _⟩ => rfl
private theorem ridx30 (i : Cert.ReferenceIdeal.S100000x128.Idx) (k : Fin 128) : ridx_main_v30 i k = ix2 k (col i) := by
  funext a; match a with | ⟨0, _⟩ => rfl | ⟨1, _⟩ => rfl
private theorem lidx48 (i : Cert.ReferenceIdeal.S100000x128.Idx) (k : Fin 128) : lidx_main_v48 i k = ix2 (row i) k := by
  funext a; match a with | ⟨0, _⟩ => rfl | ⟨1, _⟩ => rfl
private theorem ridx48 (i : Cert.ReferenceIdeal.S100000x128.Idx) (k : Fin 128) : ridx_main_v48 i k = ix2 k (col i) := by
  funext a; match a with | ⟨0, _⟩ => rfl | ⟨1, _⟩ => rfl

/-- The first region's result: the first linear map, each row scaled by its node's normalisation. -/
private theorem step1 (x0 : F32v Cert.KernelIdeal.S100000x128) (e : I32v Cert.KernelIdeal.S2x600000) (w1 : F32v Cert.KernelIdeal.S128x128)
    (i : Cert.ReferenceIdeal.S100000x128.Idx) :
    R0 x0 w1 (dinv2K e) i = dcol e (row i) * val_main_v30 (F := Ideal) x0 w1 i := by
  unfold R0
  rw [f_dinv2, val_main_v30_apply]
  refine congrArg _ (Finset.sum_congr rfl fun k _ => ?_)
  rw [lidx30, ridx30]

/-- The first layer before the ReLU, as the second region computes it at an index. -/
private theorem step2 (x0 : F32v Cert.KernelIdeal.S100000x128) (e : I32v Cert.KernelIdeal.S2x600000) (w1 : F32v Cert.KernelIdeal.S128x128)
    (b1 : F32v Cert.KernelIdeal.S128) (i : Cert.ReferenceIdeal.S100000x128.Idx) :
    dinv2K e (ix2 (row i) (0 : Fin 1)) * aggK (srcK e) (dstK e) (R0 x0 w1 (dinv2K e)) i + rowK b1 (ix2 (0 : Fin 1) (col i))
      = val_main_v46 (F := Ideal) x0 e w1 b1 i := by
  have h1 : R0 x0 w1 (dinv2K e) = fun i' => dcol e (row i') * val_main_v30 (F := Ideal) x0 w1 i' := funext (step1 x0 e w1)
  rw [f_dinv2, f_row, ref_v46, h1, layer e (val_main_v30 (F := Ideal) x0 w1) i]

/-- The second region's result: ReLU and the second linear map, each row scaled by its node's normalisation. -/
private theorem step3 (x0 : F32v Cert.KernelIdeal.S100000x128) (e : I32v Cert.KernelIdeal.S2x600000) (w1 : F32v Cert.KernelIdeal.S128x128)
    (b1 : F32v Cert.KernelIdeal.S128) (w2 : F32v Cert.KernelIdeal.S128x128) (i : Cert.ReferenceIdeal.S100000x128.Idx) :
    R1 (aggK (srcK e) (dstK e) (R0 x0 w1 (dinv2K e))) (dinv2K e) (rowK b1) w2 i
      = dcol e (row i) * val_main_v48 (F := Ideal) x0 e w1 b1 w2 i := by
  unfold R1
  rw [f_dinv2, val_main_v48_apply]
  refine congrArg _ (Finset.sum_congr rfl fun k _ => ?_)
  rw [lidx48, ridx48, ref_v47, ← step2 x0 e w1 b1 (ix2 (row i) k), f_dinv2]

theorem kernel_eq_reference (x0 : F32v Cert.KernelIdeal.S100000x128) (e : I32v Cert.KernelIdeal.S2x600000)
    (w1 : F32v Cert.KernelIdeal.S128x128) (b1 : F32v Cert.KernelIdeal.S128) (w2 : F32v Cert.KernelIdeal.S128x128) (b2 : F32v Cert.KernelIdeal.S128) :
    outK x0 e w1 b1 w2 b2 = val_main_v64 (F := Ideal) x0 e w1 b1 w2 b2 := by
  -- index by index: the last region's formula, the second layer by the layer lemma, and the reference's own normal form
  funext i
  have h3 : R1 (aggK (srcK e) (dstK e) (R0 x0 w1 (dinv2K e))) (dinv2K e) (rowK b1) w2
      = fun i' => dcol e (row i') * val_main_v48 (F := Ideal) x0 e w1 b1 w2 i' := funext (step3 x0 e w1 b1 w2)
  unfold outK R2
  rw [h3, f_dinv2, f_row, f_ix, ref_v64, layer e (val_main_v48 (F := Ideal) x0 e w1 b1 w2) i]

end Cert.Bridge

end
-- ==== Proof.lean ====
/-
  Two graph-convolution layers over 100000 nodes and 700000 edges (600000 given, 100000 self-loops), 128 features:
  the kernel's program — three row-blocked regions (x·W₁ scaled by dinv; bias, ReLU, ·W₂, scaled by dinv; scale and
  bias) around the host's row gathers and scatter-adds — against the plain reference, which weights every edge by
  `dinv (src) · dinv (dst)` inside the scatter-add.
  * The three programs run and leave their arguments unchanged: the two kernel programs by their frame runs, the
    reference by its run with the result dropped.
  * The idealization rewrote nothing, so the kernel's idealized program is its own text read over the extended reals.
  * Over the extended reals the two results are equal element by element. The kernel's run ends with its result array
    at `outK` of the arguments (the regions as whole-array functions, the host stretches as aggregation steps), the
    reference's at its composed term; the two are one function because on every edge landing on row `r` the reference's
    second weight factor is `dinv r`, a non-negative real, and a non-negative real factor moves inside any sum of
    extended reals. The precondition is not needed for the equality.
-/
import proofs.«146413_j39213051412908_2_alg».proof.Defs
import proofs.«146413_j39213051412908_2_alg».proof.Proof.Gen.Kernel
import proofs.«146413_j39213051412908_2_alg».proof.Proof.Gen.Kernel.Skeleton
import proofs.«146413_j39213051412908_2_alg».proof.Proof.Gen.Kernel.Launch
import proofs.«146413_j39213051412908_2_alg».proof.Proof.Gen.Kernel.Points
import proofs.«146413_j39213051412908_2_alg».proof.Proof.Gen.Kernel.Frame
import proofs.«146413_j39213051412908_2_alg».proof.Proof.Gen.KernelIdeal
import proofs.«146413_j39213051412908_2_alg».proof.Proof.Gen.KernelIdeal.Skeleton
import proofs.«146413_j39213051412908_2_alg».proof.Proof.Gen.KernelIdeal.Launch
import proofs.«146413_j39213051412908_2_alg».proof.Proof.Gen.KernelIdeal.Points
import proofs.«146413_j39213051412908_2_alg».proof.Proof.Gen.KernelIdeal.Frame
import proofs.«146413_j39213051412908_2_alg».proof.Proof.Gen.ReferenceIdeal
import proofs.«146413_j39213051412908_2_alg».proof.Proof.Gen.Pre_finite_inputs
import proofs.«146413_j39213051412908_2_alg».proof.Proof.RefRunP
import proofs.«146413_j39213051412908_2_alg».proof.Proof.RefReadP
import proofs.«146413_j39213051412908_2_alg».proof.Proof.KOut
import proofs.«146413_j39213051412908_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs, nothing faulting, and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the arguments both idealized programs end with the same result: the kernel's result
    function of the arguments is the reference's. -/
theorem algebraic : Cert.algebraic_KernelIdeal_ReferenceIdeal := by
  intro m ρ m' ρ' _ hagree
  refine ⟨fun c => Cert.KernelIdeal.Out.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Out.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v64_eq, (hagree c).1, (hagree c).2.1, (hagree c).2.2.1, (hagree c).2.2.2.1,
    (hagree c).2.2.2.2.1, (hagree c).2.2.2.2.2]
  exact (Cert.Bridge.kernel_eq_reference _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
